-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S98304x512 : Shape := ⟨2, ![98304, 512]⟩
abbrev S_ : Shape := ⟨0, ![]⟩

class Facts : Prop where
  bcast_S_S98304x512 : S_.BroadcastsInDim S98304x512 (![] : Fin 0 → Fin S98304x512.rank)
  reducesTo_S98304x512_S_d0_1 : S98304x512.ReducesTo [0, 1] S_
  h_S_ : 0 < S_.numel

variable [Facts]

def fn {F : FTy → Type} [FloatOps F] (main_arg0 : FVec F S98304x512 .f32) : IVec S_ 1 :=
  let main_v0 : FVec F S98304x512 .f32 := Host.absf main_arg0
  let main_cst : FVec F S_ .f32 := constant S_ .f32 0x7F800000#32
  let main_v1 : FVec F S98304x512 .f32 := broadcastInDim S98304x512 ![] bcast_S_S98304x512 main_cst
  let main_v2 : IVec S98304x512 1 := cmpf .olt main_v0 main_v1
  let main_c : IVec S_ 1 := constantI S_ 1 1#1
  let main_v3 : IVec S_ 1 := (fun x v => Host.reduce IntOp.andi x v reducesTo_S98304x512_S_d0_1 h_S_) main_v2 main_c
  main_v3
-- ==== Kernel.lean ====
abbrev S98304x512 : Shape := ⟨2, ![98304, 512]⟩
abbrev S32768x512 : Shape := ⟨2, ![32768, 512]⟩
abbrev S1x1 : Shape := ⟨2, ![1, 1]⟩
abbrev S2048x512 : Shape := ⟨2, ![2048, 512]⟩
abbrev S2048 : Shape := ⟨1, ![2048]⟩
abbrev S2048x1 : Shape := ⟨2, ![2048, 1]⟩
abbrev S1x2048x1 : Shape := ⟨3, ![1, 2048, 1]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S98304x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1x1, .f32⟩
  | .hbm, ⟨5, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S98304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v49 : BitVec 1 := Scalar.cmpi .eq arg0 c15_i32
  let v50 : BitVec 32 := Scalar.extui v49
  let c0_i32_20 : BitVec 32 := 0#32
  let v51 : BitVec 1 := Scalar.cmpi .ne v50 c0_i32_20
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S98304x512_S32768x512_0_0 : S98304x512.Slices ![0, 0] S32768x512
  slices_S98304x512_S32768x512_32768_0 : S98304x512.Slices ![32768, 0] S32768x512
  slices_S98304x512_S32768x512_65536_0 : S98304x512.Slices ![65536, 0] S32768x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S2048 : S2048x512.Reduces [1] S2048
  shapeCasts_S2048_S2048x1 : S2048.ShapeCasts S2048x1
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S32768x512.size a
  hwx0_2 : ∀ i : grid0.Coords, EltTy.bits .f32 = 32 ∨ (Rect.block (s := S32768x512) S2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S98304x512 : Shape := ⟨2, ![98304, 512]⟩
abbrev S32768x512 : Shape := ⟨2, ![32768, 512]⟩
abbrev S_ : Shape := ⟨0, ![]⟩
abbrev S32768 : Shape := ⟨1, ![32768]⟩

abbrev nBuf : Space → Nat
  | .hbm => 35
  | .vmem => 0
  | .smem => 0
  | _ => 0

abbrev bufTy : (tb : Table) → Fin (tcTables nBuf tb) → BufTy
  | .hbm, ⟨0, _⟩ => ⟨S98304x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x512, .f32⟩
  | .hbm, ⟨10, _⟩ => ⟨S32768x512, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S32768, .f32⟩
  | .hbm, ⟨15, _⟩ => ⟨S_, .f32⟩
  | .hbm, ⟨16, _⟩ => ⟨S32768, .f32⟩
  | .hbm, ⟨17, _⟩ => ⟨S32768, .i1⟩
  | .hbm, ⟨18, _⟩ => ⟨S32768, .f32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S32768, .i32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S_, .f32⟩
  | .hbm, ⟨27, _⟩ => ⟨S32768, .f32⟩
  | .hbm, ⟨28, _⟩ => ⟨S32768, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S_, .f32⟩
  | _, _ => ⟨S98304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S98304x512_S32768x512_0_0 : S98304x512.Slices ![0, 0] S32768x512
  slices_S98304x512_S32768x512_32768_0 : S98304x512.Slices ![32768, 0] S32768x512
  slices_S98304x512_S32768x512_65536_0 : S98304x512.Slices ![65536, 0] S32768x512
  reducesTo_S32768x512_S32768_d1 : S32768x512.ReducesTo [1] S32768
  h_S_ : 0 < S_.numel
  bcast_S_S32768 : S_.BroadcastsInDim S32768 (![] : Fin 0 → Fin S32768.rank)
  natLt_1_32 : 1 < 32
  reducesTo_S32768_S_d0 : S32768.ReducesTo [0] S_

variable [Facts₀]

class Facts : Prop extends Facts₀ where

variable [Facts]
-- ==== Proof.TripletSpec.lean ====
import Idealize.ShloMosaic.PureOps.Ideal.Laws
import Idealize.ShloMosaic.PureOps.Reduce
import Idealize.ShloMosaic.Lib.ValueIdx

/-!
# The triplet loss as one function of its three row arrays

For three `[n, 512]` matrices `a` (anchors), `p` (positives), `q` (negatives) over the extended reals:

* `dist u v r` is the Euclidean distance between row `r` of `u` and of `v`, the square root of the sum
  over the row of the squared differences;
* row `r` is *hard* when `dist a q r - dist a p r` is below the margin (the f32 word of 0.2);
* `term a p q r` is `dist a p r - dist a q r + margin` on a hard row and zero elsewhere;
* `unit a p q r` is one on a hard row and zero elsewhere (the compare's bit widened to 32 bits and
  read as a signed integer);
* `loss a p q` is the sum of the terms over the rows divided by the larger of one and the number of
  hard rows.

Two laws make two ways of computing `loss` agree. First, a sum over the 32768 rows is the sum over 16
blocks of the sums over each block's 2048 rows, and a row's term and unit depend only on that row, so
they can be computed from the block that holds it; addition of extended reals is associative and
commutative, so this needs no finiteness. Second, the hard rows can be counted in 32-bit integers and
the count converted to a real afterwards, or each bit converted first and the reals added: there are
fewer than 2^31 rows, so the integer sum does not wrap, and the signed maximum with one commutes with
the conversion.
-/

noncomputable section

namespace Cert.Triplet

open Idealize.ShloMosaic Idealize.ShloMosaic.ValueIdx

/-- An `[n, 512]` matrix of extended reals. -/
abbrev Mat (n : ℕ) : Type := (⟨2, ![n, 512]⟩ : Shape).Idx → EReal

variable {n : ℕ}

/-- The squared distance between row `r` of `u` and of `v`. -/
def sqDist (u v : Mat n) (r : Fin n) : EReal :=
  ∑ k : Fin 512, (u (ix2 r k) - v (ix2 r k)) * (u (ix2 r k) - v (ix2 r k))

/-- The distance between row `r` of `u` and of `v`. -/
def dist (u v : Mat n) (r : Fin n) : EReal := Ideal.sqrt (sqDist u v r)

/-- The margin: the f32 word of 0.2, at its exact binary value. -/
def margin : EReal := Ideal.ofBits .f32 0x3E4CCCCD#32

/-- Whether row `r` is a hard triplet: the negative is not farther than the positive by the margin. -/
def hard (a p q : Mat n) (r : Fin n) : BitVec 1 := Ideal.cmp .olt (dist a q r - dist a p r) margin

/-- Row `r`'s contribution to the loss's numerator. -/
def term (a p q : Mat n) (r : Fin n) : EReal :=
  Scalar.select (hard a p q r) (dist a p r - dist a q r + margin) (Ideal.ofBits .f32 0x00000000#32)

/-- Row `r`'s contribution to the count of hard rows, as a real. -/
def unit (a p q : Mat n) (r : Fin n) : EReal := ((((hard a p q r).setWidth 32).toInt : ℝ) : EReal)

/-- The loss: the sum of the terms divided by the larger of one and the number of hard rows. -/
def loss (a p q : Mat 32768) : EReal :=
  Ideal.div (∑ r, term a p q r) (max 1 (∑ r, unit a p q r))

/-! ## Rows in blocks of 2048 -/

/-- Row `r` of block `t`, as a row of the whole array. -/
abbrev rowOf (t : Fin 16) (r : Fin 2048) : Fin 32768 := ⟨2048 * t.val + r.val, by omega⟩

/-- Block `t` of an array: its rows `2048 t` to `2048 t + 2047`. -/
def blk (u : Mat 32768) (t : Fin 16) : Mat 2048 :=
  fun y => u (ix2 (rowOf t ⟨(y 0).val, idx2_lt0 y⟩) ⟨(y 1).val, idx2_lt1 y⟩)

theorem blk_apply (u : Mat 32768) (t : Fin 16) (r : Fin 2048) (k : Fin 512) :
    blk u t (ix2 r k) = u (ix2 (rowOf t r) k) := rfl

/-- A row's squared distance is computed from its block. -/
theorem sqDist_blk (u v : Mat 32768) (t : Fin 16) (r : Fin 2048) :
    sqDist (blk u t) (blk v t) r = sqDist u v (rowOf t r) := rfl

theorem dist_blk (u v : Mat 32768) (t : Fin 16) (r : Fin 2048) :
    dist (blk u t) (blk v t) r = dist u v (rowOf t r) := rfl

theorem hard_blk (a p q : Mat 32768) (t : Fin 16) (r : Fin 2048) :
    hard (blk a t) (blk p t) (blk q t) r = hard a p q (rowOf t r) := rfl

theorem term_blk (a p q : Mat 32768) (t : Fin 16) (r : Fin 2048) :
    term (blk a t) (blk p t) (blk q t) r = term a p q (rowOf t r) := rfl

theorem unit_blk (a p q : Mat 32768) (t : Fin 16) (r : Fin 2048) :
    unit (blk a t) (blk p t) (blk q t) r = unit a p q (rowOf t r) := rfl

/-- A sum over the 32768 rows is the sum over the 16 blocks of the sums over each block's rows. -/
theorem sum_rows_eq_sum_blocks {M : Type*} [AddCommMonoid M] (f : Fin 32768 → M) :
    ∑ R, f R = ∑ t : Fin 16, ∑ r : Fin 2048, f (rowOf t r) := by
  have e := Equiv.sum_comp (finProdFinEquiv (m := 16) (n := 2048)) (fun R : Fin (16 * 2048) => f R)
  rw [Fintype.sum_prod_type] at e
  exact e.symm.trans (Finset.sum_congr rfl fun t _ => Finset.sum_congr rfl fun r _ =>
    congrArg f (Fin.ext (by show r.val + 2048 * t.val = 2048 * t.val + r.val; omega)))

/-- The numerator, block by block. -/
theorem sum_term_blocks (a p q : Mat 32768) :
    ∑ R, term a p q R = ∑ t : Fin 16, ∑ r : Fin 2048, term (blk a t) (blk p t) (blk q t) r :=
  sum_rows_eq_sum_blocks _

/-- The count, block by block. -/
theorem sum_unit_blocks (a p q : Mat 32768) :
    ∑ R, unit a p q R = ∑ t : Fin 16, ∑ r : Fin 2048, unit (blk a t) (blk p t) (blk q t) r :=
  sum_rows_eq_sum_blocks _

/-! ## Counting in 32-bit integers, or in reals -/

/-- A one-bit word widened to 32 bits and read signed is the bit's natural value. -/
theorem toInt_setWidth_bit (b : BitVec 1) : (b.setWidth 32).toInt = (b.toNat : ℤ) := by
  by_cases h : b = 1#1
  · subst h; decide
  · rw [eq_zero_of_ne_one h]; decide

theorem toNat_setWidth_bit (b : BitVec 1) : (b.setWidth 32).toNat = b.toNat := by
  by_cases h : b = 1#1
  · subst h; decide
  · rw [eq_zero_of_ne_one h]; decide

theorem bit_le_one (b : BitVec 1) : b.toNat ≤ 1 := by
  have := b.isLt; omega

/-- A fold of 32-bit additions from zero is the 32-bit word of the sum of the words' natural values. -/
theorem fold_addi_eq {ι : Type} (w : ι → BitVec 32) (s : Finset ι) :
    s.fold IntOp.addi 0#32 w = BitVec.ofNat 32 (∑ r ∈ s, (w r).toNat) := by
  classical
  induction s using Finset.induction_on with
  | empty => simp
  | insert a s ha ih =>
    rw [Finset.fold_insert ha, ih, Finset.sum_insert ha]
    show w a + _ = _
    rw [BitVec.ofNat_add]
    simp

/-- A natural below 2^31, as a 32-bit word read signed, is itself. -/
theorem toInt_ofNat_small (N : ℕ) (h : N < 2 ^ 31) : (BitVec.ofNat 32 N).toInt = (N : ℤ) := by
  rw [BitVec.toInt_eq_toNat_cond, BitVec.toNat_ofNat, Nat.mod_eq_of_lt (by omega)]
  rw [if_pos (by omega)]

/-- The signed maximum of one and such a word, read signed, is the larger of one and the natural. -/
theorem toInt_maxsi_one (N : ℕ) (h : N < 2 ^ 31) :
    (IntOp.maxsi 1#32 (BitVec.ofNat 32 N)).toInt = max 1 (N : ℤ) := by
  have h1 : (1#32 : BitVec 32).toInt = 1 := by decide
  unfold IntOp.maxsi
  by_cases hN : N < 1
  · have hs : (BitVec.ofNat 32 N).slt 1#32 = true := by
      rw [BitVec.slt, toInt_ofNat_small N h, h1]; simp; omega
    rw [if_pos hs, h1]; omega
  · have hs : ¬ (BitVec.ofNat 32 N).slt 1#32 = true := by
      rw [BitVec.slt, toInt_ofNat_small N h, h1]; simp; omega
    rw [if_neg hs, toInt_ofNat_small N h]; omega

/-- A finite sum of naturals coerced to extended reals is the coercion of the sum. -/
theorem sum_natCast_ereal {ι : Type} (s : Finset ι) (f : ι → ℕ) :
    ∑ r ∈ s, (((f r : ℕ) : ℝ) : EReal) = (((∑ r ∈ s, f r : ℕ) : ℝ) : EReal) := by
  classical
  induction s using Finset.induction_on with
  | empty => simp
  | insert a s ha ih => rw [Finset.sum_insert ha, Finset.sum_insert ha, ih, Nat.cast_add, EReal.coe_add]

/-- THE COUNT, EITHER WAY. Fewer than 2^31 one-bit words: widening each to 32 bits, adding them in
    32-bit arithmetic from zero, taking the signed maximum with one and converting to a real gives the
    larger of one and the sum of the words each converted to a real. -/
theorem count_either_way {ι : Type} [Fintype ι] (b : ι → BitVec 1)
    (hcard : Fintype.card ι < 2 ^ 31) :
    ((((IntOp.maxsi 1#32 (Finset.univ.fold IntOp.addi 0#32 fun r => (b r).setWidth 32)).toInt : ℤ) : ℝ) : EReal)
      = max 1 (∑ r, (((((b r).setWidth 32).toInt : ℤ) : ℝ) : EReal)) := by
  have hN : ∑ r, (b r).toNat < 2 ^ 31 :=
    lt_of_le_of_lt ((Finset.sum_le_sum fun r _ => bit_le_one (b r)).trans (by simp)) hcard
  rw [fold_addi_eq]
  simp only [toNat_setWidth_bit, toInt_setWidth_bit]
  rw [toInt_maxsi_one _ hN]
  have e : ∀ r, (((((b r).toNat : ℕ) : ℤ) : ℝ) : EReal) = ((((b r).toNat : ℕ) : ℝ) : EReal) := fun r => by
    rw [Int.cast_natCast]
  simp only [e]
  rw [sum_natCast_ereal]
  rw [Int.cast_max, Int.cast_one, Int.cast_natCast, EReal.coe_strictMono.monotone.map_max, EReal.coe_one]

end Cert.Triplet

end
-- ==== Proof.LibUnitAxes.lean ====
import Idealize.ShloMosaic.PureOps.Ideal.Laws
import Idealize.ShloMosaic.Lib.ValueIdx
import Idealize.ShloMosaic.Lib.ValueLayout

/-!
# Sums and casts along unit axes, read at an index

General lemmas, generic in the extents, about the layout steps a kernel takes around a reduction
that keeps or adds axes of extent one:

* a sum over the indices of an `[n]` vector, or of a `[1, n, 1]` stack, is the sum over `Fin n`;
* every index of a `[1]` vector, of a `[1, 1]` matrix and of a rank-zero array is the one index;
* an `[a]` vector recast as the column `[a, 1]` reads, at `(i, u)`, the vector at `i`;
* a one-element vector recast as `[1, 1, 1]` and read at its position `(0, 0, 0)` is its element;
* a `[1, 1]` matrix recast as a rank-zero array reads its one entry;
* on the extended reals, a `multi_reduction <add>` over the last axis of an `[a, n]` matrix read at
  row `r` is the sum over the row, and one over both inner axes of a `[1, n, 1]` stack is the sum over
  the stack's `n` entries.
-/

namespace Cert.Lib

open Idealize.ShloMosaic Idealize.ShloMosaic.ValueIdx

/-! ## Indices of shapes with unit axes -/

/-- The indices of an `[n]` vector are the elements of `Fin n`. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` vector is the sum over `Fin n`. -/
theorem sum_idx1 {M : Type*} [AddCommMonoid M] {n : ℕ} (f : (⟨1, ![n]⟩ : Shape).Idx → M) :
    ∑ i, f i = ∑ r : Fin n, f (ix1 r) := by
  rw [← Equiv.sum_comp (idxEquiv1 (n := n)).symm f]
  rfl

/-- An index of a `[1, n, 1]` stack is `(0, r, 0)` for its middle coordinate `r`. -/
theorem eq_ix3_unit {n : ℕ} (i : (⟨3, ![1, n, 1]⟩ : Shape).Idx) :
    i = ix3 (0 : Fin 1) (i 1) (0 : Fin 1) := by
  funext d
  match d with
  | ⟨0, _⟩ => exact Fin.ext (by have h : (i 0).val < 1 := (i 0).isLt; show (i 0).val = 0; omega)
  | ⟨1, _⟩ => rfl
  | ⟨2, _⟩ => exact Fin.ext (by have h : (i 2).val < 1 := (i 2).isLt; show (i 2).val = 0; omega)

/-- The indices of a `[1, n, 1]` stack are the elements of `Fin n`. -/
def idxEquiv1n1 {n : ℕ} : (⟨3, ![1, n, 1]⟩ : Shape).Idx ≃ Fin n where
  toFun i := i 1
  invFun r := ix3 (0 : Fin 1) r (0 : Fin 1)
  left_inv i := (eq_ix3_unit i).symm
  right_inv _ := rfl

/-- A sum over the indices of a `[1, n, 1]` stack is the sum over `Fin n`. -/
theorem sum_idx1n1 {M : Type*} [AddCommMonoid M] {n : ℕ} (f : (⟨3, ![1, n, 1]⟩ : Shape).Idx → M) :
    ∑ i, f i = ∑ r : Fin n, f (ix3 (0 : Fin 1) r (0 : Fin 1)) := by
  rw [← Equiv.sum_comp (idxEquiv1n1 (n := n)).symm f]
  rfl

/-- A `[1]` vector has one index. -/
theorem eq_ix1_zero (i : (⟨1, ![1]⟩ : Shape).Idx) : i = ix1 (0 : Fin 1) := by
  funext d
  match d with
  | ⟨0, _⟩ => exact Fin.ext (by have h : (i 0).val < 1 := (i 0).isLt; show (i 0).val = 0; omega)

/-- A `[1, 1]` matrix has one index. -/
theorem eq_ix2_zero (i : (⟨2, ![1, 1]⟩ : Shape).Idx) : i = ix2 (0 : Fin 1) (0 : Fin 1) := by
  funext d
  match d with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)

/-! ## Casts -/

variable {α : Type}

/-- An `[a]` vector recast as the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-element vector recast as `[1, 1, 1]` and read at its position `(0, 0, 0)` is its element. -/
theorem extract_shapeCast_1_111 (x : (⟨1, ![1]⟩ : Shape).Idx → α)
    (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt shapeCast
  exact congrArg x (eq_ix1_zero _)

/-- A `[1, 1]` matrix recast as a rank-zero array reads its one entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  unfold shapeCast
  exact congrArg x (eq_ix2_zero _)

/-! ## Reductions on the extended reals -/

/-- A `multi_reduction <add>` over the last axis of an `[a, n]` matrix, read at row `r`, is the sum of
    the row's entries. -/
theorem rowSum_apply {φ : FTy} {a n : ℕ} (src : FVec Ideal ⟨2, ![a, n]⟩ φ) (acc : BitVec φ.bits)
    (h : (⟨2, ![a, n]⟩ : Shape).Reduces [1] ⟨1, ![a]⟩) (hφ : FKind.Formats φ)
    (hacc : acc = FKind.add.neutral φ hφ) (r : Fin a) :
    multiReduction .add [1] ⟨1, ![a]⟩ src acc h hφ hacc (ix1 r) = ∑ k : Fin n, src (ix2 r k) :=
  (Ideal.multiReduction_add_single src acc h hφ hacc (ix1 r)).trans
    (Finset.sum_congr rfl fun k _ => congrArg src (funext fun d => Fin.ext (by
      match d with | ⟨0, _⟩ => rfl | ⟨1, _⟩ => rfl)))

/-- A `multi_reduction <add>` over both inner axes of a `[1, n, 1]` stack is the sum of its `n`
    entries. -/
theorem stackSum_apply {φ : FTy} {n : ℕ} (src : FVec Ideal ⟨3, ![1, n, 1]⟩ φ) (acc : BitVec φ.bits)
    (h : (⟨3, ![1, n, 1]⟩ : Shape).Reduces [1, 2] ⟨1, ![1]⟩) (hφ : FKind.Formats φ)
    (hacc : acc = FKind.add.neutral φ hφ) (j : (⟨1, ![1]⟩ : Shape).Idx) :
    multiReduction .add [1, 2] ⟨1, ![1]⟩ src acc h hφ hacc j
      = ∑ r : Fin n, src (ix3 (0 : Fin 1) r (0 : Fin 1)) :=
  (Ideal.multiReduction_add_total src acc h (fun b => by match b with | ⟨0, _⟩ => rfl) hφ hacc j).trans
    (sum_idx1n1 src)

end Cert.Lib
-- ==== Proof.RefSide.lean ====
import proofs.«116973_j45071386804286_1_alg».proof.Proof.Gen.ReferenceIdeal.Read
import proofs.«116973_j45071386804286_1_alg».proof.Proof.TripletSpec
import proofs.«116973_j45071386804286_1_alg».proof.Proof.LibUnitAxes

/-!
# The reference computes the triplet loss of its three slices

The reference cuts its `[98304, 512]` argument into three `[32768, 512]` slices (anchors, positives,
negatives), takes each row's two distances, masks the hard rows, sums the masked terms in floats and
the mask's bits in 32-bit integers, and divides the first sum by the larger of one and the second,
converted to a float. Read at the extended reals, stage by stage, this is `Cert.Triplet.loss` of the three
slices: the float sums start from the zero word, which is the real zero, and the integer count is the
real count (`Cert.Triplet.count_either_way`: 32768 rows cannot wrap a 32-bit sum).
-/

noncomputable section

namespace Cert.ReferenceIdeal.RefValue

open Cert.ReferenceIdeal Cert.ReferenceIdeal.Gen Cert.ReferenceIdeal.Read
open Idealize.ShloMosaic Idealize.ShloMosaic.ValueIdx Cert.Triplet Cert.Lib

variable (x0 : (⟨S98304x512, .f32⟩ : BufTy).Contents (Elt Ideal))

/-- The reference's three slices of its argument: rows 0–32767, 32768–65535, 65536–98303. -/
abbrev anchors : Mat 32768 := val_main_v0 (F := Ideal) x0
abbrev positives : Mat 32768 := val_main_v1 (F := Ideal) x0
abbrev negatives : Mat 32768 := val_main_v2 (F := Ideal) x0

/-- The index the first row sum reads at row `R`, column `k`. -/
theorem idx_row5 (R : Fin 32768) (k : Fin 512) : idx_main_v5 (ix1 R) k = ix2 R k :=
  funext fun a => Fin.ext (by match a with | ⟨0, _⟩ => rfl | ⟨1, _⟩ => rfl)

/-- The index the second row sum reads at row `R`, column `k`. -/
theorem idx_row9 (R : Fin 32768) (k : Fin 512) : idx_main_v9 (ix1 R) k = ix2 R k :=
  funext fun a => Fin.ext (by match a with | ⟨0, _⟩ => rfl | ⟨1, _⟩ => rfl)

/-- Row `R`'s distance to its positive. -/
theorem posDist (R : Fin 32768) :
    val_main_v6 (F := Ideal) x0 (ix1 R) = dist (anchors x0) (positives x0) R := by
  rw [val_main_v6_apply, val_main_v5_apply]
  show Ideal.sqrt (Ideal.ofBits .f32 0x00000000#32 + _) = Ideal.sqrt _
  rw [Ideal.ofBits_zero_f32, zero_add]
  refine congrArg Ideal.sqrt (Finset.sum_congr rfl fun k _ => ?_)
  rw [idx_row5]
  rfl

/-- Row `R`'s distance to its negative. -/
theorem negDist (R : Fin 32768) :
    val_main_v10 (F := Ideal) x0 (ix1 R) = dist (anchors x0) (negatives x0) R := by
  rw [val_main_v10_apply, val_main_v9_apply]
  show Ideal.sqrt (Ideal.ofBits .f32 0x00000000#32 + _) = Ideal.sqrt _
  rw [Ideal.ofBits_zero_f32, zero_add]
  refine congrArg Ideal.sqrt (Finset.sum_congr rfl fun k _ => ?_)
  rw [idx_row9]
  rfl

/-- The compare's bit at row `R` says whether the row is hard. -/
theorem hardAt (R : Fin 32768) :
    val_main_v13 (F := Ideal) x0 (ix1 R) = hard (anchors x0) (positives x0) (negatives x0) R := by
  rw [val_main_v13_apply, val_main_v11_apply, val_main_v12_apply, posDist, negDist]
  rfl

/-- The masked term at row `R`. -/
theorem termAt (R : Fin 32768) :
    val_main_v19 (F := Ideal) x0 (ix1 R) = term (anchors x0) (positives x0) (negatives x0) R := by
  rw [val_main_v19_apply, hardAt, val_main_v16_apply, val_main_v14_apply, val_main_v15_apply, posDist, negDist,
    val_main_call0_v1_apply]
  rfl

/-- The float sum of the masked terms is the loss's numerator. -/
theorem numerator (i : S_.Idx) :
    val_main_v20 (F := Ideal) x0 i = ∑ R, term (anchors x0) (positives x0) (negatives x0) R := by
  rw [val_main_v20_apply]
  show Ideal.ofBits .f32 0x00000000#32 + _ = _
  rw [Ideal.ofBits_zero_f32, zero_add]
  refine (sum_idx1 _).trans (Finset.sum_congr rfl fun R _ => termAt x0 R)

/-- A rank-zero array has one index. -/
instance : Subsingleton S_.Idx := ⟨fun a b => funext fun d => d.elim0⟩

/-- The 32-bit integer sum of the mask's bits is the fold of 32-bit additions over every row's bit. -/
theorem countWord (i : S_.Idx) :
    val_main_v18 (F := Ideal) x0 i
      = Finset.univ.fold IntOp.addi 0#32 (fun j : S32768.Idx => (val_main_v13 (F := Ideal) x0 j).setWidth 32) := by
  unfold val_main_v18
  rw [Host.reduce_eq_fold, Finset.filter_true_of_mem fun j _ => Subsingleton.elim _ _]
  rfl

/-- The converted maximum of one and the integer count is the loss's denominator. -/
theorem denominator (i : S_.Idx) :
    val_main_v22 (F := Ideal) x0 i
      = max 1 (∑ R, unit (anchors x0) (positives x0) (negatives x0) R) := by
  rw [val_main_v22_apply, val_main_v21_apply, countWord]
  have hcard : Fintype.card S32768.Idx < 2 ^ 31 := by
    rw [Fintype.card_congr (idxEquiv1 (n := 32768))]; simp
  refine (count_either_way (fun j : S32768.Idx => val_main_v13 (F := Ideal) x0 j) hcard).trans ?_
  refine congrArg (max 1) ((sum_idx1 _).trans (Finset.sum_congr rfl fun R _ => ?_))
  rw [hardAt]
  rfl

/-- THE REFERENCE'S RESULT is the loss of its three slices. -/
theorem result_eq (i : S_.Idx) :
    val_main_v23 (F := Ideal) x0 i = loss (anchors x0) (positives x0) (negatives x0) := by
  rw [val_main_v23_apply, numerator, denominator]
  rfl

end Cert.ReferenceIdeal.RefValue

end
-- ==== Proof.KernelPieces.lean ====
import proofs.«116973_j45071386804286_1_alg».proof.Proof.Gen.KernelIdeal.Frame
import Idealize.ShloMosaic.Lib.Pipeline.Value
import Idealize.ShloMosaic.Lib.Tactic

/-!
# What one grid point leaves in the two accumulators and in the output block

The kernel body keeps two one-element accumulators across the grid: the running sum of the masked
triplet terms and the running count of hard triplets. At a point it (first point only) resets both to
zero, adds this block's partial sum and partial count to them, and (last point only) stores
`sum / max(1, count)` into the one-element output block.

Here each of these contents is read back as the body's pure payload of the three input blocks and of
what the accumulators held before the point, for the three kinds of point: the first point, a middle
point, the last point. Everything is stated for any interpretation of the float operations.
-/

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a store or load of a whole one-block buffer are all zero. -/
theorem hz : (![0, 0] : Fin 2 → Nat) = fun _ => 0 := funext fun a => by fin_cases a <;> rfl

/-- A middle point leaves in the sum accumulator what it held plus the block's partial sum. -/
theorem sum_mid (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 x2 : Vec F S2048x512 .f32) (xs0 xs1 : Vec F S1x1 .f32) :
    sout0_B_0 c i a1 h1 a2 h2 a3 h3 a4 h4 a5 h5 a6 h6 hc0 hc1 x0 x1 x2 xs0 xs1 = k0_pay1 (k0_pay11 x0 x1 x2 xs0) := by
  unfold sout0_B_0
  rw [View.read_writes_eq_canon _ _ _ (scover0_B_0 c i a1 h1 a2 h2 a3 h3 a4 h4 a5 h5 a6 h6 hc0 hc1 x0 x1 x2 xs0 xs1)]
  unfold kernelRun0_B
  dsimp only
  sl_unfold_words
  rw [View.canon_unit_zero hz]
  simp only [View.readAt_eq_ld, h1.read_unread, h2.read_unread, h3.read_unread, h5.read_unread, h6.read_unread, View.ld_unit_zero (S := S2048x512) hz, View.ld_unit_zero (S := S1x1) hz]

/-- A middle point leaves in the count accumulator what it held plus the block's partial count. -/
theorem count_mid (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 x2 : Vec F S2048x512 .f32) (xs0 xs1 : Vec F S1x1 .f32) :
    sout0_B_1 c i a1 h1 a2 h2 a3 h3 a4 h4 a5 h5 a6 h6 hc0 hc1 x0 x1 x2 xs0 xs1 = k0_pay2 (k0_pay10 x0 x1 x2) xs1 := by
  unfold sout0_B_1
  rw [View.read_writes_eq_canon _ _ _ (scover0_B_1 c i a1 h1 a2 h2 a3 h3 a4 h4 a5 h5 a6 h6 hc0 hc1 x0 x1 x2 xs0 xs1)]
  unfold kernelRun0_B
  dsimp only
  sl_unfold_words
  rw [View.canon_unit_zero hz]
  simp only [View.readAt_eq_ld, h1.read_unread, h2.read_unread, h3.read_unread, h5.read_unread, h6.read_unread, View.ld_unit_zero (S := S2048x512) hz, View.ld_unit_zero (S := S1x1) hz]

/-- The last point updates the sum accumulator as a middle point does. -/
theorem sum_last (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 x2 : Vec F S2048x512 .f32) (xs0 xs1 : Vec F S1x1 .f32) :
    sout0_C_0 c i a1 h1 a2 h2 a3 h3 a4 h4 a5 h5 a6 h6 hc0 hc1 x0 x1 x2 xs0 xs1 = k0_pay1 (k0_pay11 x0 x1 x2 xs0) := by
  unfold sout0_C_0
  rw [View.read_writes_eq_canon _ _ _ (scover0_C_0 c i a1 h1 a2 h2 a3 h3 a4 h4 a5 h5 a6 h6 hc0 hc1 x0 x1 x2 xs0 xs1)]
  unfold kernelRun0_C
  dsimp only
  sl_unfold_words
  rw [View.canon_unit_zero hz]
  simp only [View.readAt_eq_ld, h1.read_unread, h2.read_unread, h3.read_unread, h5.read_unread, h6.read_unread, View.ld_unit_zero (S := S2048x512) hz, View.ld_unit_zero (S := S1x1) hz]

/-- The last point updates the count accumulator as a middle point does. -/
theorem count_last (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 x2 : Vec F S2048x512 .f32) (xs0 xs1 : Vec F S1x1 .f32) :
    sout0_C_1 c i a1 h1 a2 h2 a3 h3 a4 h4 a5 h5 a6 h6 hc0 hc1 x0 x1 x2 xs0 xs1 = k0_pay2 (k0_pay10 x0 x1 x2) xs1 := by
  unfold sout0_C_1
  rw [View.read_writes_eq_canon _ _ _ (scover0_C_1 c i a1 h1 a2 h2 a3 h3 a4 h4 a5 h5 a6 h6 hc0 hc1 x0 x1 x2 xs0 xs1)]
  unfold kernelRun0_C
  dsimp only
  sl_unfold_words
  rw [View.canon_unit_zero hz]
  simp only [View.readAt_eq_ld, h1.read_unread, h2.read_unread, h3.read_unread, h5.read_unread, h6.read_unread, View.ld_unit_zero (S := S2048x512) hz, View.ld_unit_zero (S := S1x1) hz]

/-- The last point stores, into the output block, the updated sum divided by the larger of one and the updated count. -/
theorem out_last (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 x2 : Vec F S2048x512 .f32) (xs0 xs1 : Vec F S1x1 .f32) :
    out0_C_3 c i a1 h1 a2 h2 a3 h3 a4 h4 a5 h5 a6 h6 hc0 hc1 x0 x1 x2 xs0 xs1 = k0_pay3 (k0_pay2 (k0_pay10 x0 x1 x2) xs1) (k0_pay1 (k0_pay11 x0 x1 x2 xs0)) := by
  unfold out0_C_3
  rw [View.read_writes_eq_canon _ _ _ (cover0_C_3 c i a1 h1 a2 h2 a3 h3 a4 h4 a5 h5 a6 h6 hc0 hc1 x0 x1 x2 xs0 xs1)]
  unfold kernelRun0_C
  dsimp only
  sl_unfold_words
  rw [View.canon_unit_zero hz]
  simp only [View.readCov_unit_zero (S := S1x1) _ hz, View.readAt_eq_ld, h1.read_unread, h2.read_unread, h3.read_unread, h5.read_unread, h6.read_unread, View.ld_unit_zero (S := S2048x512) hz, View.ld_unit_zero (S := S1x1) hz]

/-- The first point resets the sum accumulator to zero and adds the block's partial sum. -/
theorem sum_first (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 x2 : Vec F S2048x512 .f32) :
    sout0_A_0 c i a1 h1 a2 h2 a3 h3 a4 h4 a5 h5 a6 h6 hc0 hc1 x0 x1 x2 = k0_pay1 (k0_pay11 x0 x1 x2 k0_pay4) := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S1x1) hz]
  simp only [View.readCov_unit_zero (S := S1x1) _ hz, View.readAt_eq_ld, h1.read_unread, h2.read_unread, h3.read_unread, h5.read_unread, h6.read_unread, View.ld_unit_zero (S := S2048x512) hz, View.ld_unit_zero (S := S1x1) hz]

/-- The first point resets the count accumulator to zero and adds the block's partial count. -/
theorem count_first (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 x2 : Vec F S2048x512 .f32) :
    sout0_A_1 c i a1 h1 a2 h2 a3 h3 a4 h4 a5 h5 a6 h6 hc0 hc1 x0 x1 x2 = k0_pay2 (k0_pay10 x0 x1 x2) k0_pay5 := by
  unfold sout0_A_1
  rw [View.read_writes_eq_canon _ _ _ (scover0_A_1 c i a1 h1 a2 h2 a3 h3 a4 h4 a5 h5 a6 h6 hc0 hc1 x0 x1 x2)]
  unfold kernelRun0_A
  dsimp only
  sl_unfold_words
  rw [View.canon_cons_unit_zero (S := S1x1) hz]
  simp only [View.readCov_unit_zero (S := S1x1) _ hz, View.readAt_eq_ld, h1.read_unread, h2.read_unread, h3.read_unread, h5.read_unread, h6.read_unread, View.ld_unit_zero (S := S2048x512) hz, View.ld_unit_zero (S := S1x1) hz]

end Cert.KernelIdeal.Pieces

end
-- ==== Proof.KernelBlock.lean ====
import proofs.«116973_j45071386804286_1_alg».proof.Proof.Gen.KernelIdeal.Skeleton
import proofs.«116973_j45071386804286_1_alg».proof.Proof.TripletSpec
import proofs.«116973_j45071386804286_1_alg».proof.Proof.LibUnitAxes

/-!
# One block's contribution, read at the extended reals

The kernel body's arithmetic on one grid point's three `[2048, 512]` blocks (anchors `x0`, positives
`x1`, negatives `x2`): each row's two distances as a `[2048, 1]` column (a row sum kept as a column, then
a square root), the compare against the margin, the masked terms summed over the column into one
number, and the compare's bits converted and summed into one number. Read at the extended reals these are
`Cert.Triplet.dist`, `hard`, the sum of `term` and the sum of `unit` over the block's 2048 rows. The
accumulators' updates add these to what they held; the final store divides the sum by the larger of
one and the count.
-/

noncomputable section

namespace Cert.KernelIdeal.Block

open Cert.KernelIdeal Cert.KernelIdeal.Gen
open Idealize.ShloMosaic Idealize.ShloMosaic.ValueIdx Cert.Triplet Cert.Lib

variable (x0 x1 x2 : FVec Ideal S2048x512 .f32)

/-- Row `r`'s distance to its positive, in the column the body keeps it in. -/
theorem posDist (r : Fin 2048) (u : Fin 1) : k0_pay7 (F := Ideal) x0 x1 (ix2 r u) = dist x0 x1 r := by
  unfold k0_pay7 k0_pay6
  show Ideal.sqrt (shapeCast S2048x1 _ _ (ix2 r u)) = Ideal.sqrt _
  refine congrArg Ideal.sqrt ?_
  refine (shapeCast_a_a1_apply _ _ r u).trans ?_
  refine (rowSum_apply _ _ _ _ _ r).trans ?_
  simp only [shapeCast_self]
  rfl

/-- Row `r`'s distance to its negative. -/
theorem negDist (r : Fin 2048) (u : Fin 1) : k0_pay8 (F := Ideal) x0 x2 (ix2 r u) = dist x0 x2 r := by
  unfold k0_pay8 k0_pay6
  show Ideal.sqrt (shapeCast S2048x1 _ _ (ix2 r u)) = Ideal.sqrt _
  refine congrArg Ideal.sqrt ?_
  refine (shapeCast_a_a1_apply _ _ r u).trans ?_
  refine (rowSum_apply _ _ _ _ _ r).trans ?_
  simp only [shapeCast_self]
  rfl

/-- The compare's bit at row `r` says whether the row is hard. -/
theorem hardAt (r : Fin 2048) (u : Fin 1) : k0_pay9 (F := Ideal) x0 x1 x2 (ix2 r u) = hard x0 x1 x2 r := by
  unfold k0_pay9
  show Ideal.cmp .olt (k0_pay8 (F := Ideal) x0 x2 (ix2 r u) - k0_pay7 (F := Ideal) x0 x1 (ix2 r u)) _ = _
  rw [posDist, negDist]
  rfl

/-- The sum accumulator's update: what it held plus the block's masked terms. -/
theorem sumStep (acc : Vec Ideal S1x1 .f32) (y : S1x1.Idx) :
    k0_pay11 (F := Ideal) x0 x1 x2 acc y = acc y + ∑ r : Fin 2048, term x0 x1 x2 r := by
  unfold k0_pay11
  show (acc y : EReal) + (_ : EReal) = _
  refine congrArg ((acc y : EReal) + ·) ?_
  refine (extract_shapeCast_1_111 _ _ _).trans ?_
  refine (stackSum_apply _ _ _ _ _ _).trans ?_
  refine Finset.sum_congr rfl fun r _ => ?_
  refine (shapeCast_ab_1ab_apply _ _ 0 r 0).trans ?_
  show Scalar.select (k0_pay9 (F := Ideal) x0 x1 x2 (ix2 r 0))
    (k0_pay7 (F := Ideal) x0 x1 (ix2 r 0) - k0_pay8 (F := Ideal) x0 x2 (ix2 r 0) + _) _ = _
  rw [hardAt, posDist, negDist]
  rfl

/-- The block's partial count: its hard rows, each bit converted to a real and added. -/
theorem countStep : k0_pay10 (F := Ideal) x0 x1 x2 = ∑ r : Fin 2048, unit x0 x1 x2 r := by
  unfold k0_pay10
  refine (extract_shapeCast_1_111 _ _ _).trans ?_
  refine (stackSum_apply _ _ _ _ _ _).trans ?_
  refine Finset.sum_congr rfl fun r _ => ?_
  refine (shapeCast_ab_1ab_apply _ _ 0 r 0).trans ?_
  show ((((k0_pay9 (F := Ideal) x0 x1 x2 (ix2 r 0)).setWidth 32).toInt : ℝ) : EReal) = _
  rw [hardAt]
  rfl

/-- Storing back an accumulator's new contents changes nothing (a recast to the same shape). -/
theorem pay1_eq (v : FVec Ideal S1x1 .f32) : k0_pay1 (F := Ideal) v = v := by
  unfold k0_pay1
  exact shapeCast_self _ _

/-- The count accumulator's update: what it held plus the partial count. -/
theorem pay2_apply (cnt : Ideal .f32) (acc : Vec Ideal S1x1 .f32) (y : S1x1.Idx) :
    k0_pay2 (F := Ideal) cnt acc y = acc y + cnt := by
  unfold k0_pay2
  rw [shapeCast_self]
  rfl

/-- The f32 word of 1.0 is the real one. -/
theorem ofBits_one : Ideal.ofBits .f32 0x3F800000#32 = 1 := by
  simp [Ideal.ofBits, Ideal.ieee]
  rw [← EReal.coe_mul]
  norm_num

/-- The final store: the sum over the larger of one and the count. -/
theorem pay3_apply (cnt sum : Vec Ideal S1x1 .f32) (y : S1x1.Idx) :
    k0_pay3 (F := Ideal) cnt sum y = Ideal.div (sum y) (max 1 (cnt y)) := by
  unfold k0_pay3
  show Ideal.div (sum y) (max (Ideal.ofBits .f32 0x3F800000#32) (cnt y)) = _
  rw [ofBits_one]

/-- The reset stores zero into the sum accumulator, -/
theorem pay4_apply (y : S1x1.Idx) : k0_pay4 (F := Ideal) y = 0 := by
  unfold k0_pay4
  rw [shapeCast_self]
  exact Ideal.ofBits_zero_f32

/-- and into the count accumulator. -/
theorem pay5_apply (y : S1x1.Idx) : k0_pay5 (F := Ideal) y = 0 := by
  unfold k0_pay5
  rw [shapeCast_self]
  exact Ideal.ofBits_zero_f32

end Cert.KernelIdeal.Block

end
-- ==== Proof.KernelCases.lean ====
import proofs.«116973_j45071386804286_1_alg».proof.Proof.KernelPieces
import proofs.«116973_j45071386804286_1_alg».proof.Proof.KernelBlock

/-!
# What each kind of grid point leaves, as extended reals

The found contents of the two accumulators and of the output block (KernelPieces) with the body's
payloads read at the extended reals (KernelBlock): at the first point the accumulators end at the
block's sum of terms and count of hard rows; at a later point at what they held plus those; and the
last point stores the quotient of the updated sum by the larger of one and the updated count.
-/

noncomputable section

namespace Cert.KernelIdeal.Cases

open Cert.KernelIdeal Cert.KernelIdeal.Gen
open Idealize.ShloMosaic Idealize.ShloMosaic.TcCoe Idealize.SL.Sem Cert.Triplet

/-- First point, sum accumulator. -/
theorem first_sum (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 x2 : Vec Ideal S2048x512 .f32) (y : S1x1.Idx) :
    sout0_A_0 (F := Ideal) c i a1 h1 a2 h2 a3 h3 a4 h4 a5 h5 a6 h6 hc0 hc1 x0 x1 x2 y = ∑ r : Fin 2048, term x0 x1 x2 r := by
  rw [Pieces.sum_first, Block.pay1_eq, Block.sumStep, Block.pay4_apply, zero_add]

/-- First point, count accumulator. -/
theorem first_count (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 x2 : Vec Ideal S2048x512 .f32) (y : S1x1.Idx) :
    sout0_A_1 (F := Ideal) c i a1 h1 a2 h2 a3 h3 a4 h4 a5 h5 a6 h6 hc0 hc1 x0 x1 x2 y = ∑ r : Fin 2048, unit x0 x1 x2 r := by
  rw [Pieces.count_first, Block.pay2_apply, Block.pay5_apply, zero_add, Block.countStep]

/-- Middle point, sum accumulator. -/
theorem mid_sum (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 x2 : Vec Ideal S2048x512 .f32) (xs0 xs1 : Vec Ideal S1x1 .f32) (y : S1x1.Idx) :
    sout0_B_0 (F := Ideal) c i a1 h1 a2 h2 a3 h3 a4 h4 a5 h5 a6 h6 hc0 hc1 x0 x1 x2 xs0 xs1 y = xs0 y + ∑ r : Fin 2048, term x0 x1 x2 r := by
  rw [Pieces.sum_mid, Block.pay1_eq, Block.sumStep]

/-- Middle point, count accumulator. -/
theorem mid_count (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 x2 : Vec Ideal S2048x512 .f32) (xs0 xs1 : Vec Ideal S1x1 .f32) (y : S1x1.Idx) :
    sout0_B_1 (F := Ideal) c i a1 h1 a2 h2 a3 h3 a4 h4 a5 h5 a6 h6 hc0 hc1 x0 x1 x2 xs0 xs1 y = xs1 y + ∑ r : Fin 2048, unit x0 x1 x2 r := by
  rw [Pieces.count_mid, Block.pay2_apply, Block.countStep]

/-- Last point, sum accumulator. -/
theorem last_sum (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 x2 : Vec Ideal S2048x512 .f32) (xs0 xs1 : Vec Ideal S1x1 .f32) (y : S1x1.Idx) :
    sout0_C_0 (F := Ideal) c i a1 h1 a2 h2 a3 h3 a4 h4 a5 h5 a6 h6 hc0 hc1 x0 x1 x2 xs0 xs1 y = xs0 y + ∑ r : Fin 2048, term x0 x1 x2 r := by
  rw [Pieces.sum_last, Block.pay1_eq, Block.sumStep]

/-- Last point, count accumulator. -/
theorem last_count (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 x2 : Vec Ideal S2048x512 .f32) (xs0 xs1 : Vec Ideal S1x1 .f32) (y : S1x1.Idx) :
    sout0_C_1 (F := Ideal) c i a1 h1 a2 h2 a3 h3 a4 h4 a5 h5 a6 h6 hc0 hc1 x0 x1 x2 xs0 xs1 y = xs1 y + ∑ r : Fin 2048, unit x0 x1 x2 r := by
  rw [Pieces.count_last, Block.pay2_apply, Block.countStep]

/-- Last point, the output block: the updated sum over the larger of one and the updated count. -/
theorem last_out (c : Dev nD) (i : grid0.Coords) (a1 : Memref sig .tc .vmem S2048x512 .f32) (h1 : a1.IsWhole) (a2 : Memref sig .tc .vmem S2048x512 .f32) (h2 : a2.IsWhole) (a3 : Memref sig .tc .vmem S2048x512 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 x2 : Vec Ideal S2048x512 .f32) (xs0 xs1 : Vec Ideal S1x1 .f32) (y : S1x1.Idx) :
    out0_C_3 (F := Ideal) c i a1 h1 a2 h2 a3 h3 a4 h4 a5 h5 a6 h6 hc0 hc1 x0 x1 x2 xs0 xs1 y
      = Ideal.div (xs0 y + ∑ r : Fin 2048, term x0 x1 x2 r) (max 1 (xs1 y + ∑ r : Fin 2048, unit x0 x1 x2 r)) := by
  rw [Pieces.out_last, Block.pay3_apply, Block.pay1_eq, Block.sumStep, Block.pay2_apply, Block.countStep]

end Cert.KernelIdeal.Cases

end
-- ==== Proof.KernelRun.lean ====
import proofs.«116973_j45071386804286_1_alg».proof.Proof.Gen.KernelIdeal.Frame
import proofs.«116973_j45071386804286_1_alg».proof.Proof.KernelCases
import Idealize.ShloMosaic.Lib.Pipeline.Value
import Idealize.ShloMosaic.Lib.StableHlo.Run
import Idealize.ShloMosaic.Lib.Tactic

/-!
# The kernel's result is the triplet loss of the three arrays it is launched on

Point `t` of the 16-point grid sees rows `2048 t … 2048 t + 2047` of the three `[32768, 512]` arrays the
host cut from the argument. By induction on the point, after point `n` the sum accumulator holds the sum
of the first `n + 1` blocks' sums of terms and the count accumulator the sum of their counts of hard rows.
The last point writes their quotient (count floored at one) into the one-element output array, which no
other point writes back; the host then recasts that `[1, 1]` array as the scalar result. A block's sums are
the whole arrays' sums over the block's rows, and the 16 blocks partition the rows, so the quotient is
`Cert.Triplet.loss` of the three arrays.
-/

noncomputable section

namespace Cert.KernelIdeal.KValue

open Cert.KernelIdeal Cert.KernelIdeal.Gen
open Idealize.ShloMosaic Idealize.ShloMosaic.TcCoe Idealize.SL.Sem Idealize.ShloMosaic.ValueIdx
open Cert.Triplet Cert.Lib
open Idealize.ShloMosaic.Pipeline (Dat)

variable (m : (ℓ : Loc nD τ sig) → Buf (Elt Ideal) ℓ) (ρ : Dev nD → PrngReg)

/-! ## The accumulators after each point -/

/-- The three input blocks at point `t`. -/
abbrev B0 (c : Dev nD) (t : Fin cfg0.N) : Vec Ideal S2048x512 .f32 := iblk m c 0 t
abbrev B1 (c : Dev nD) (t : Fin cfg0.N) : Vec Ideal S2048x512 .f32 := iblk m c 1 t
abbrev B2 (c : Dev nD) (t : Fin cfg0.N) : Vec Ideal S2048x512 .f32 := iblk m c 2 t

/-- Block `t`'s sum of terms (zero past the grid). -/
def partSum (c : Dev nD) (t : ℕ) : EReal :=
  if h : t < cfg0.N then ∑ r : Fin 2048, term (B0 m c ⟨t, h⟩) (B1 m c ⟨t, h⟩) (B2 m c ⟨t, h⟩) r else 0

/-- Block `t`'s count of hard rows (zero past the grid). -/
def partCount (c : Dev nD) (t : ℕ) : EReal :=
  if h : t < cfg0.N then ∑ r : Fin 2048, unit (B0 m c ⟨t, h⟩) (B1 m c ⟨t, h⟩) (B2 m c ⟨t, h⟩) r else 0

theorem partSum_of_lt (c : Dev nD) (t : ℕ) (h : t < cfg0.N) :
    partSum m c t = ∑ r : Fin 2048, term (B0 m c ⟨t, h⟩) (B1 m c ⟨t, h⟩) (B2 m c ⟨t, h⟩) r := dif_pos h

theorem partCount_of_lt (c : Dev nD) (t : ℕ) (h : t < cfg0.N) :
    partCount m c t = ∑ r : Fin 2048, unit (B0 m c ⟨t, h⟩) (B1 m c ⟨t, h⟩) (B2 m c ⟨t, h⟩) r := dif_pos h

/-- At the first point the accumulators end at the block's sums. -/
theorem at_first (c : Dev nD) (t : Fin cfg0.N) (h0 : t.val % 16 = 0) (h1 : ¬t.val % 16 = 15) (y : S1x1.Idx) :
    (outsAt0 m c t.val t.isLt).2.1 y = ∑ r : Fin 2048, term (B0 m c t) (B1 m c t) (B2 m c t) r
      ∧ (outsAt0 m c t.val t.isLt).2.2 y = ∑ r : Fin 2048, unit (B0 m c t) (B1 m c t) (B2 m c t) r := by
  rw [outsAt0_A m c t h0 h1]
  exact ⟨Cases.first_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (B0 m c t) (B1 m c t) (B2 m c t) y,
    Cases.first_count c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (B0 m c t) (B1 m c t) (B2 m c t) y⟩

/-- At a middle point the accumulators end at what the point before left plus the block's sums. -/
theorem at_mid (c : Dev nD) (t : Fin cfg0.N) (h0 : ¬t.val % 16 = 0) (h1 : ¬t.val % 16 = 15) (y : S1x1.Idx) :
    (outsAt0 m c t.val t.isLt).2.1 y = (outsAt0 m c (t.val - 1) (Nat.lt_of_le_of_lt (Nat.sub_le _ _) t.isLt)).2.1 y + ∑ r : Fin 2048, term (B0 m c t) (B1 m c t) (B2 m c t) r
      ∧ (outsAt0 m c t.val t.isLt).2.2 y = (outsAt0 m c (t.val - 1) (Nat.lt_of_le_of_lt (Nat.sub_le _ _) t.isLt)).2.2 y + ∑ r : Fin 2048, unit (B0 m c t) (B1 m c t) (B2 m c t) r := by
  rw [outsAt0_B m c t h0 h1]
  exact ⟨Cases.mid_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (B0 m c t) (B1 m c t) (B2 m c t) (outsAt0 m c (t.val - 1) (Nat.lt_of_le_of_lt (Nat.sub_le _ _) t.isLt)).2.1 (outsAt0 m c (t.val - 1) (Nat.lt_of_le_of_lt (Nat.sub_le _ _) t.isLt)).2.2 y,
    Cases.mid_count c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (B0 m c t) (B1 m c t) (B2 m c t) (outsAt0 m c (t.val - 1) (Nat.lt_of_le_of_lt (Nat.sub_le _ _) t.isLt)).2.1 (outsAt0 m c (t.val - 1) (Nat.lt_of_le_of_lt (Nat.sub_le _ _) t.isLt)).2.2 y⟩

/-- At the last point likewise, and the output block holds the quotient. -/
theorem at_last (c : Dev nD) (t : Fin cfg0.N) (h0 : ¬t.val % 16 = 0) (h1 : t.val % 16 = 15) (y : S1x1.Idx) :
    (outsAt0 m c t.val t.isLt).2.1 y = (outsAt0 m c (t.val - 1) (Nat.lt_of_le_of_lt (Nat.sub_le _ _) t.isLt)).2.1 y + ∑ r : Fin 2048, term (B0 m c t) (B1 m c t) (B2 m c t) r
      ∧ (outsAt0 m c t.val t.isLt).2.2 y = (outsAt0 m c (t.val - 1) (Nat.lt_of_le_of_lt (Nat.sub_le _ _) t.isLt)).2.2 y + ∑ r : Fin 2048, unit (B0 m c t) (B1 m c t) (B2 m c t) r
      ∧ (outsAt0 m c t.val t.isLt).1 y
          = Ideal.div ((outsAt0 m c (t.val - 1) (Nat.lt_of_le_of_lt (Nat.sub_le _ _) t.isLt)).2.1 y + ∑ r : Fin 2048, term (B0 m c t) (B1 m c t) (B2 m c t) r)
              (max 1 ((outsAt0 m c (t.val - 1) (Nat.lt_of_le_of_lt (Nat.sub_le _ _) t.isLt)).2.2 y + ∑ r : Fin 2048, unit (B0 m c t) (B1 m c t) (B2 m c t) r)) := by
  rw [outsAt0_C m c t h0 h1]
  exact ⟨Cases.last_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (B0 m c t) (B1 m c t) (B2 m c t) (outsAt0 m c (t.val - 1) (Nat.lt_of_le_of_lt (Nat.sub_le _ _) t.isLt)).2.1 (outsAt0 m c (t.val - 1) (Nat.lt_of_le_of_lt (Nat.sub_le _ _) t.isLt)).2.2 y,
    Cases.last_count c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (B0 m c t) (B1 m c t) (B2 m c t) (outsAt0 m c (t.val - 1) (Nat.lt_of_le_of_lt (Nat.sub_le _ _) t.isLt)).2.1 (outsAt0 m c (t.val - 1) (Nat.lt_of_le_of_lt (Nat.sub_le _ _) t.isLt)).2.2 y,
    Cases.last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (B0 m c t) (B1 m c t) (B2 m c t) (outsAt0 m c (t.val - 1) (Nat.lt_of_le_of_lt (Nat.sub_le _ _) t.isLt)).2.1 (outsAt0 m c (t.val - 1) (Nat.lt_of_le_of_lt (Nat.sub_le _ _) t.isLt)).2.2 y⟩

/-- The recursion's value depends on the point's number only, not on how it is written. -/
theorem outsAt0_congr (c : Dev nD) (n n' : ℕ) (e : n = n') (h : n < cfg0.N) (h' : n' < cfg0.N) :
    outsAt0 m c n h = outsAt0 m c n' h' := by
  subst e; rfl

/-- THE RUNNING SUMS. After point `n` the two accumulators hold the first `n + 1` blocks' sums. -/
theorem accs (c : Dev nD) (n : ℕ) : ∀ (h : n < cfg0.N) (y : S1x1.Idx),
    (outsAt0 m c n h).2.1 y = ∑ t ∈ Finset.range (n + 1), partSum m c t
      ∧ (outsAt0 m c n h).2.2 y = ∑ t ∈ Finset.range (n + 1), partCount m c t := by
  induction n with
  | zero =>
    intro h y
    rw [Finset.sum_range_one, Finset.sum_range_one, partSum_of_lt m c 0 h, partCount_of_lt m c 0 h]
    exact at_first m c ⟨0, h⟩ (Nat.zero_mod 16) (by show ¬ 0 % 16 = 15; decide) y
  | succ n ih =>
    intro h y
    have hN : cfg0.N = 16 := N_0
    have ihn := ih (Nat.lt_of_succ_lt h) y
    have h0 : ¬ (⟨n + 1, h⟩ : Fin cfg0.N).val % 16 = 0 := by show ¬ (n + 1) % 16 = 0; omega
    have hp := outsAt0_congr m c ((⟨n + 1, h⟩ : Fin cfg0.N).val - 1) n (Nat.add_sub_cancel n 1)
      (Nat.lt_of_le_of_lt (Nat.sub_le _ _) (⟨n + 1, h⟩ : Fin cfg0.N).isLt) (Nat.lt_of_succ_lt h)
    rw [Finset.sum_range_succ _ (n + 1), Finset.sum_range_succ (partCount m c) (n + 1),
      partSum_of_lt m c (n + 1) h, partCount_of_lt m c (n + 1) h]
    by_cases h1 : (n + 1) % 16 = 15
    · have e := at_last m c ⟨n + 1, h⟩ h0 h1 y
      rw [hp, ihn.1, ihn.2] at e
      exact ⟨e.1, e.2.1⟩
    · have e := at_mid m c ⟨n + 1, h⟩ h0 h1 y
      rw [hp, ihn.1, ihn.2] at e
      exact e

/-- What the last point stores, at a point `n + 1` that is the last: the earlier blocks' sums plus this block's,
    the sum of terms over the larger of one and the count. -/
theorem out_at_last (c : Dev nD) (n : ℕ) (h : n + 1 < cfg0.N) (h1 : (n + 1) % 16 = 15) (y : S1x1.Idx) :
    (outsAt0 m c (n + 1) h).1 y
      = Ideal.div (∑ t ∈ Finset.range (n + 1), partSum m c t + partSum m c (n + 1))
          (max 1 (∑ t ∈ Finset.range (n + 1), partCount m c t + partCount m c (n + 1))) := by
  have hN : cfg0.N = 16 := N_0
  have h0 : ¬ (⟨n + 1, h⟩ : Fin cfg0.N).val % 16 = 0 := by show ¬ (n + 1) % 16 = 0; omega
  have e := (at_last m c ⟨n + 1, h⟩ h0 h1 y).2.2
  have ih := accs m c n (Nat.lt_of_succ_lt h) y
  have hp := outsAt0_congr m c ((⟨n + 1, h⟩ : Fin cfg0.N).val - 1) n (Nat.add_sub_cancel n 1)
    (Nat.lt_of_le_of_lt (Nat.sub_le _ _) (⟨n + 1, h⟩ : Fin cfg0.N).isLt) (Nat.lt_of_succ_lt h)
  rw [hp, ih.1, ih.2] at e
  rw [partSum_of_lt m c (n + 1) h, partCount_of_lt m c (n + 1) h]
  exact e

/-! ## The blocks are the blocks of the three arrays the region is launched on -/

/-- The three arrays as the region finds them. -/
abbrev anchorsArr (c : Dev nD) : Mat 32768 := V m c main_v0
abbrev positivesArr (c : Dev nD) : Mat 32768 := V m c main_v1
abbrev negativesArr (c : Dev nD) : Mat 32768 := V m c main_v2

/-- The printed index maps, decided over the grid: block `t` of each input starts at row block `t`, column block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A grid point as a block number. -/
abbrev blockNo (t : Fin cfg0.N) : Fin 16 := ⟨t.val, lt_of_lt_of_eq t.isLt N_0⟩

/-- The anchors' block at point `t` is rows `2048 t …` of the anchors. -/
theorem B0_eq (c : Dev nD) (t : Fin cfg0.N) : B0 m c t = blk (anchorsArr m c) (blockNo t) := by
  obtain ⟨e0, e1, -, -, -, -⟩ := idx_facts t
  funext j
  show V m c main_v0 (((cfg0.win 0).blk t).view.emb j) = V m c main_v0 _
  refine congrArg (V m c main_v0) (funext fun a => Fin.ext ?_)
  match a with
  | ⟨0, _⟩ => show win0_0.index t (0 : Fin 2) * 2048 + 1 * (j 0).val = 2048 * t.val + (j 0).val; omega
  | ⟨1, _⟩ => show win0_0.index t (1 : Fin 2) * 512 + 1 * (j 1).val = (j 1).val; omega

/-- The positives' block at point `t`. -/
theorem B1_eq (c : Dev nD) (t : Fin cfg0.N) : B1 m c t = blk (positivesArr m c) (blockNo t) := by
  obtain ⟨-, -, e0, e1, -, -⟩ := idx_facts t
  funext j
  show V m c main_v1 (((cfg0.win 1).blk t).view.emb j) = V m c main_v1 _
  refine congrArg (V m c main_v1) (funext fun a => Fin.ext ?_)
  match a with
  | ⟨0, _⟩ => show win0_1.index t (0 : Fin 2) * 2048 + 1 * (j 0).val = 2048 * t.val + (j 0).val; omega
  | ⟨1, _⟩ => show win0_1.index t (1 : Fin 2) * 512 + 1 * (j 1).val = (j 1).val; omega

/-- The negatives' block at point `t`. -/
theorem B2_eq (c : Dev nD) (t : Fin cfg0.N) : B2 m c t = blk (negativesArr m c) (blockNo t) := by
  obtain ⟨-, -, -, -, e0, e1⟩ := idx_facts t
  funext j
  show V m c main_v2 (((cfg0.win 2).blk t).view.emb j) = V m c main_v2 _
  refine congrArg (V m c main_v2) (funext fun a => Fin.ext ?_)
  match a with
  | ⟨0, _⟩ => show win0_2.index t (0 : Fin 2) * 2048 + 1 * (j 0).val = 2048 * t.val + (j 0).val; omega
  | ⟨1, _⟩ => show win0_2.index t (1 : Fin 2) * 512 + 1 * (j 1).val = (j 1).val; omega

/-- The 16 blocks' sums of terms are the sum of the terms over all rows. -/
theorem total_sum (c : Dev nD) :
    ∑ t ∈ Finset.range 16, partSum m c t
      = ∑ R, term (anchorsArr m c) (positivesArr m c) (negativesArr m c) R := by
  rw [sum_term_blocks, Finset.sum_range]
  refine Finset.sum_congr rfl fun t _ => ?_
  have ht : t.val < cfg0.N := lt_of_lt_of_eq t.isLt N_0.symm
  rw [partSum_of_lt m c t.val ht, B0_eq, B1_eq, B2_eq]

/-- The 16 blocks' counts are the count over all rows. -/
theorem total_count (c : Dev nD) :
    ∑ t ∈ Finset.range 16, partCount m c t
      = ∑ R, unit (anchorsArr m c) (positivesArr m c) (negativesArr m c) R := by
  rw [sum_unit_blocks, Finset.sum_range]
  refine Finset.sum_congr rfl fun t _ => ?_
  have ht : t.val < cfg0.N := lt_of_lt_of_eq t.isLt N_0.symm
  rw [partCount_of_lt m c t.val ht, B0_eq, B1_eq, B2_eq]

/-! ## The output array, and the scalar the host makes of it -/

/-- The loss of the three arrays the region is launched on. -/
abbrev lossOf (c : Dev nD) : EReal := loss (anchorsArr m c) (positivesArr m c) (negativesArr m c)

/-- The output array after the run: its one entry is the loss. -/
abbrev outArr (c : Dev nD) : Buf (Elt Ideal) ((c : Thread nD τ).loc main_v3) := fun _ => lossOf m c

/-- The last point stores the loss. -/
theorem last_value (c : Dev nD) (t : Fin cfg0.N) (h15 : t.val = 15) (y : S1x1.Idx) :
    (outsAt0 m c t.val t.isLt).1 y = lossOf m c := by
  obtain ⟨k, hk⟩ := t
  cases k with
  | zero => exact absurd h15 (by show ¬ (0 : ℕ) = 15; decide)
  | succ n =>
    have hn : n = 14 := by have h' : n + 1 = 15 := h15; omega
    have hs : ∑ t ∈ Finset.range (n + 1), partSum m c t + partSum m c (n + 1)
        = ∑ t ∈ Finset.range 16, partSum m c t := by
      rw [← Finset.sum_range_succ, hn]
    have hc : ∑ t ∈ Finset.range (n + 1), partCount m c t + partCount m c (n + 1)
        = ∑ t ∈ Finset.range 16, partCount m c t := by
      rw [← Finset.sum_range_succ, hn]
    refine (out_at_last m c n hk (by rw [hn]) y).trans ?_
    rw [hs, hc, total_sum, total_count]
    rfl

/-- THE ONE WRITE-BACK, at the last point, writes the loss. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 16 := N_0
  have h15 : t.val = 15 := by have := (flush0_3 t).mp hf; have := t.isLt; omega
  have hv : (dats m 0 c).after 3 t = fun _ => lossOf m c := by
    rw [after0_3]
    exact funext fun y => last_value m c t h15 y
  obtain rfl : t = t0_15 := Fin.ext h15
  show (cfg0.win 3).cut (grid0.coords t0_15) ((dats m 0 c).after 3 t0_15) = _
  rw [hv]
  have hoff : (fun a => win0_3.index t0_15 a * main_v3.ty.shape.size a) = fun _ => 0 :=
    funext fun a => by fin_cases a <;> decide +kernel
  exact (Memref.read_access_unit_zero (Elt Ideal) main_v3 hoff (fun a => by rw [congrFun hoff a]; simp)
    (outArr m c)).symm

/-- Every index of the one-element output array is in the last point's block. -/
theorem in_last_block (i : S1x1.Idx) : i ∈ ((cfg0.win 3).blk t0_15).view.set := by
  show i ∈ ((View.whole main_v3).slice (win0_3.rect t0_15)).set
  rw [View.set_slice_whole, Rect.mem_set_unit]
  have f : win0_3.index t0_15 (0 : Fin 2) = 0 ∧ win0_3.index t0_15 (1 : Fin 2) = 0 := by decide +kernel
  intro a
  match a with
  | ⟨0, _⟩ =>
    show win0_3.index t0_15 (0 : Fin 2) * 1 ≤ (i 0).val ∧ (i 0).val < win0_3.index t0_15 (0 : Fin 2) * 1 + 1
    have hi : (i 0).val < 1 := (i 0).isLt
    omega
  | ⟨1, _⟩ =>
    show win0_3.index t0_15 (1 : Fin 2) * 1 ≤ (i 1).val ∧ (i 1).val < win0_3.index t0_15 (1 : Fin 2) * 1 + 1
    have hi : (i 1).val < 1 := (i 1).isLt
    omega

/-- So the output array ends holding the loss. -/
theorem final_out (c : Dev nD) : (dats m 0 c).arrAt 3 cfg0.N = outArr m c :=
  (dats m 0 c).arrAt_eq_of_cover 3 (outArr m c) (flushed_eq m c) fun i =>
    ⟨t0_15, (flush0_3 t0_15).mpr rfl, in_last_block i⟩

/-- The host's recast of the `[1, 1]` output array as a scalar reads its one entry. -/
theorem tail_eq (c : Dev nD) :
    Pipeline.afterTail₀ cfgs (dats m) 0 (V0 m) [hostOps1] c main_v4 = fun _ => lossOf m c := by
  unfold Pipeline.afterTail₀
  show StableHlo.after hostOps1 _ (Proc.devRef .tc main_v4) = _
  after_results
  funext i
  show shapeCast S_ (Pipeline.withArrays spec0 c (V0 m c) (fun w => (dats m 0 c).arrAt w cfg0.N)
    (Proc.devRef .tc (Pipeline.arrRef spec0 3))) shapeCasts_S1x1_S_ i = lossOf m c
  rw [Pipeline.withArrays_arr spec0 launch0.win.arr_inj c _ _ 3, final_out]
  exact shapeCast_11_scalar_apply _ _ i

/-! ## The three arrays are the host's slices of the argument -/

theorem anchors_eq (c : Dev nD) :
    anchorsArr m c = extractStridedSlice S32768x512 ![0, 0] (m ((c : Thread nD τ).loc main_arg0))
      slices_S98304x512_S32768x512_0_0 := by
  show StableHlo.after hostOps0 (fun b => m (c, b)) (Proc.devRef .tc main_v0) = _
  after_results

theorem positives_eq (c : Dev nD) :
    positivesArr m c = extractStridedSlice S32768x512 ![32768, 0] (m ((c : Thread nD τ).loc main_arg0))
      slices_S98304x512_S32768x512_32768_0 := by
  show StableHlo.after hostOps0 (fun b => m (c, b)) (Proc.devRef .tc main_v1) = _
  after_results

theorem negatives_eq (c : Dev nD) :
    negativesArr m c = extractStridedSlice S32768x512 ![65536, 0] (m ((c : Thread nD τ).loc main_arg0))
      slices_S98304x512_S32768x512_65536_0 := by
  show StableHlo.after hostOps0 (fun b => m (c, b)) (Proc.devRef .tc main_v2) = _
  after_results

/-! ## The run, read -/

/-- The loss of the three slices of an argument array. -/
abbrev lossOfArg (x : (⟨S98304x512, .f32⟩ : BufTy).Contents (Elt Ideal)) : EReal :=
  loss (extractStridedSlice S32768x512 ![0, 0] x slices_S98304x512_S32768x512_0_0)
    (extractStridedSlice S32768x512 ![32768, 0] x slices_S98304x512_S32768x512_32768_0)
    (extractStridedSlice S32768x512 ![65536, 0] x slices_S98304x512_S32768x512_65536_0)

theorem lossOf_eq (c : Dev nD) : lossOf m c = lossOfArg (m ((c : Thread nD τ).loc main_arg0)) := by
  show loss (anchorsArr m c) (positivesArr m c) (negativesArr m c) = _
  rw [anchors_eq, positives_eq, negatives_eq]

/-- THE KERNEL'S RUN: every weakly fair execution ends with the result at the loss of the argument's three
    slices, the argument unchanged. -/
theorem run : θ_run defs (onTc (τ := τ) (main (F := Ideal))) ⟨m, fun _ => 0, ρ⟩ fun r => ∀ c : Dev nD,
      r.2.mem ((c : Thread nD τ).loc main_v4) = (fun _ => lossOfArg (m ((c : Thread nD τ).loc main_arg0)))
      ∧ r.2.mem ((c : Thread nD τ).loc main_arg0) = m ((c : Thread nD τ).loc main_arg0) :=
  (θ_run defs _ _).mono (fun _ h c =>
    ⟨((h c).2 main_v4 (Pipeline.mem_restRefs_of main_v4 (by decide) (by decide))).trans
        ((tail_eq m c).trans (by rw [lossOf_eq])),
      ((h c).2 main_arg0 (Pipeline.mem_restRefs_of main_arg0 (by decide) (by decide))).trans
        (W_main_arg0 m (dats m) c)⟩)
    (run_main m ρ)

end Cert.KernelIdeal.KValue

end
-- ==== Proof.lean ====
/-
  The triplet loss kernel against its jnp reference, over the extended reals.

  Both programs cut a `[98304, 512]` array into anchors, positives and negatives of 32768 rows each; for each row
  take the Euclidean distances anchor–positive and anchor–negative; call the row hard when the second is not
  larger than the first by the margin 0.2; and return the sum over the hard rows of
  (first distance − second distance + margin), divided by the larger of one and the number of hard rows.

  The kernel walks the rows in 16 blocks of 2048, keeping the running sum and the running count (as floats)
  in two one-element accumulators, and divides at the last block. The reference sums all rows at once and counts
  the hard rows in 32-bit integers, converting the count afterwards. On the extended reals the two agree with no
  appeal to finiteness of the inputs: regrouping a sum into blocks uses only associativity and commutativity of
  addition, and an integer count of at most 32768 does not wrap, so converting before or after adding gives the
  same real, and the signed maximum with one commutes with the conversion (Proof/TripletSpec.lean).

  The idealization rewrote no operation, so `preserves` is trivial. The three frames are the generated ones; the
  reference's is its run with the result forgotten.
-/
import proofs.«116973_j45071386804286_1_alg».proof.Defs
import proofs.«116973_j45071386804286_1_alg».proof.Proof.Gen.Kernel
import proofs.«116973_j45071386804286_1_alg».proof.Proof.Gen.Kernel.Skeleton
import proofs.«116973_j45071386804286_1_alg».proof.Proof.Gen.Kernel.Launch
import proofs.«116973_j45071386804286_1_alg».proof.Proof.Gen.Kernel.Points
import proofs.«116973_j45071386804286_1_alg».proof.Proof.Gen.Kernel.Frame
import proofs.«116973_j45071386804286_1_alg».proof.Proof.Gen.KernelIdeal
import proofs.«116973_j45071386804286_1_alg».proof.Proof.Gen.KernelIdeal.Skeleton
import proofs.«116973_j45071386804286_1_alg».proof.Proof.Gen.KernelIdeal.Launch
import proofs.«116973_j45071386804286_1_alg».proof.Proof.Gen.KernelIdeal.Points
import proofs.«116973_j45071386804286_1_alg».proof.Proof.Gen.KernelIdeal.Frame
import proofs.«116973_j45071386804286_1_alg».proof.Proof.Gen.ReferenceIdeal
import proofs.«116973_j45071386804286_1_alg».proof.Proof.Gen.ReferenceIdeal.Run
import proofs.«116973_j45071386804286_1_alg».proof.Proof.Gen.ReferenceIdeal.Read
import proofs.«116973_j45071386804286_1_alg».proof.Proof.Gen.Pre_finite_inputs
import proofs.«116973_j45071386804286_1_alg».proof.Proof.RefSide
import proofs.«116973_j45071386804286_1_alg».proof.Proof.KernelRun
import Idealize.ShloMosaic.Adequacy
import Idealize.ShloMosaic.Init

noncomputable section

namespace Cert.Proof

open Idealize.ShloMosaic Idealize.SL.Sem

/-- The word-level kernel runs and leaves its argument as it found it. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its argument as it found it: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the argument, the kernel ends at the loss of the argument's three slices and
    the reference at the loss of the same three slices. -/
theorem algebraic : Cert.algebraic_KernelIdeal_ReferenceIdeal := by
  intro m ρ m' ρ' _ hagree
  refine ⟨fun c => fun _ => Cert.KernelIdeal.KValue.lossOfArg
      (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, hagree c]
  funext i
  exact Cert.ReferenceIdeal.RefValue.result_eq _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
